-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S2048x2048 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S2048x2048 : Shape := ⟨2, ![2048, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S32768x2048 .f32) (main_arg1 : FVec F S2048x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S32768x2048 : Shape := ⟨2, ![32768, 2048]⟩
abbrev S2048x2048 : Shape := ⟨2, ![2048, 2048]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .f32⟩
  | .local _ .vmem, ⟨3, _⟩ => ⟨S256x2048, .f32⟩
  | .local _ .vmem, ⟨4, _⟩ => ⟨S256x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [BitOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S32768x2048.size a
  hwx0_0 : ∀ i : grid0.Coords, EltTy.bits .f32 = 32 ∨ (Rect.block (s := S32768x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S32768x2048.size a
  hwx0_2 : ∀ i : grid0.Coords, EltTy.bits .f32 = 32 ∨ (Rect.block (s := S32768x2048) S256x2048.size (cc0_transform_2 i) (hinb0_2 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S2048x2048, .f32⟩
  | .hbm, ⟨3, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S32768x2048_S2048x2048_S32768x2048_1_1_0_0_n_n_wf : DotDims.WF S32768x2048 S2048x2048 S32768x2048 [1] [1] [0] [0] [] []

variable [Facts₀]

def dot_S32768x2048_S2048x2048_S32768x2048_1_1_0_0_n_n : DotDims S32768x2048 S2048x2048 S32768x2048 where
  lhsContracting := [1]
  rhsContracting := [1]
  lhsNonContracting := [0]
  rhsNonContracting := [0]
  lhsBatch := []
  rhsBatch := []
  wf := dot_S32768x2048_S2048x2048_S32768x2048_1_1_0_0_n_n_wf

class Facts : Prop extends Facts₀ where

variable [Facts]
-- ==== Proof.SignedMatmul.lean ====
/-
  The function both programs compute, over the extended reals.

  For an activation array `x` of 32768 rows by 2048 features and a weight array `w` of 2048 outputs by 2048
  features, entry `(t, o)` of the result is the inner product of row `t` of `x` with the SIGNS of row `o` of `w`:

      out (t, o) = ∑ k, x (t, k) · sign (w (o, k)),

  where `sign` is `-1` below zero, `0` at zero and `1` above it (and `∓1` at the two infinities). Nothing here mentions
  a program: the two value proofs each show their side is this function, index by index.
-/
import Idealize.ShloMosaic.PureOps.Ideal
import Idealize.ShloMosaic.Lib.ValueIdx

noncomputable section

open scoped BigOperators

namespace Cert.SignedMatmul

open Idealize.ShloMosaic Idealize.ShloMosaic.ValueIdx

/-- The activations' shape: 32768 rows of 2048 features. -/
abbrev Acts : Shape := ⟨2, ![32768, 2048]⟩
/-- The weights' shape: 2048 output rows of 2048 features. -/
abbrev Wts : Shape := ⟨2, ![2048, 2048]⟩

/-- Entry `(t, o)` is row `t` of `x` against the signs of row `o` of `w`, summed over the 2048 features. -/
def signedProduct (x : FVec Ideal Acts .f32) (w : FVec Ideal Wts .f32) : FVec Ideal Acts .f32 :=
  fun i => ∑ k : Fin 2048, x (ix2 (i 0) k) * Ideal.sign (w (ix2 (i 1) k))

/-- The same entry with the row and the column named. -/
theorem signedProduct_apply (x : FVec Ideal Acts .f32) (w : FVec Ideal Wts .f32) (t : Fin 32768) (o : Fin 2048) :
    signedProduct x w (ix2 t o) = ∑ k : Fin 2048, x (ix2 t k) * Ideal.sign (w (ix2 o k)) := rfl

end Cert.SignedMatmul

end
-- ==== Proof.ReferenceValue.lean ====
/-
  The reference's result is the signed product.

  The reference takes the sign of every weight and then contracts the feature axis of the activations with the
  feature axis of the signed weights. Read at an index `(t, o)` that contraction is a sum over the 2048 features of
  `x (t, k)` times the sign of `w (o, k)`, which is the specification word for word once the two operand indices of
  the contraction are written by their coordinates.
-/
import proofs.«119476_j12549894438939_1_alg».proof.Proof.Gen.ReferenceIdeal.Read
import proofs.«119476_j12549894438939_1_alg».proof.Proof.SignedMatmul
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Cert.SignedMatmul

/-- The left operand's index of the contraction at output `i` and feature `k` is row `i 0`, column `k`. -/
theorem left_index (i : S32768x2048.Idx) (k : Fin 2048) : lidx_main_v1 i k = ix2 (i 0) k :=
  funext fun a => Fin.ext (by match a with | ⟨0, _⟩ => rfl | ⟨1, _⟩ => rfl)

/-- The right operand's index is row `i 1` of the weights, column `k`: both operands are contracted along their
    second axis, so no transpose appears. -/
theorem right_index (i : S32768x2048.Idx) (k : Fin 2048) : ridx_main_v1 i k = ix2 (i 1) k :=
  funext fun a => Fin.ext (by match a with | ⟨0, _⟩ => rfl | ⟨1, _⟩ => rfl)

/-- The reference's composed term — the contraction of the activations with the signs of the weights — is the
    signed product of its two arguments. -/
theorem reference_eq (x : FVec Ideal S32768x2048 .f32) (w : FVec Ideal S2048x2048 .f32) :
    Host.dotGeneral dot_S32768x2048_S2048x2048_S32768x2048_1_1_0_0_n_n none x (Host.sign w) = signedProduct x w := by
  funext i
  rw [val_main_v1_eq, val_main_v1_apply]
  refine Finset.sum_congr rfl fun k _ => ?_
  rw [val_main_v0_apply, Ideal.hostUnary_sign_def, left_index, right_index]
  rfl

end Cert.ReferenceIdeal.RefValue

end
-- ==== Proof.BlockProduct.lean ====
/-
  What the kernel body computes on one block.

  The body loads a block of 256 activation rows and the whole weight array, replaces every weight by its sign
  (the weight itself where its magnitude is not above zero, otherwise `-1` below zero and `1` elsewhere: on the
  extended reals this is the sign function), and multiplies the two with the feature axis of both contracted into a
  zero accumulator. The two narrowings to sixteen bits are the identity on exact values. So entry `(r, o)` of the
  stored block is the sum over the 2048 features of `x (r, k)` times the sign of `w (o, k)`.
-/
import proofs.«119476_j12549894438939_1_alg».proof.Proof.Gen.KernelIdeal.Skeleton
import Idealize.ShloMosaic.PureOps.Ideal.Laws
import Idealize.ShloMosaic.Lib.ValueIdx

noncomputable section

open scoped BigOperators

namespace Cert.KernelIdeal.BlockValue

open Cert.KernelIdeal Cert.KernelIdeal.Gen
open Idealize.ShloMosaic Idealize.ShloMosaic.ValueIdx

/-- The contraction of a 256 by 2048 block with a 2048 by 2048 array along the second axis of each. -/
abbrev D := dot_S256x2048_S2048x2048_S256x2048_1_1_0_0_n_n

/-- The left operand's row is the output's row … -/
theorem left_row (j : S256x2048.Idx) (q : D.contr.Idx) : (D.lhsIdx j q 0).val = (j 0).val := by
  unfold DotDims.lhsIdx
  rw [dif_neg (show ¬(0 : Fin S256x2048.rank) ∈ D.lhsBatch by decide), dif_pos (show (0 : Fin S256x2048.rank) ∈ D.lhsNonContracting by decide)]
  rfl
/-- … and its column the contracted feature. -/
theorem left_col (j : S256x2048.Idx) (q : D.contr.Idx) : (D.lhsIdx j q 1).val = (q ⟨0, by decide⟩).val :=
  D.lhsIdx_val_of_single rfl j q
/-- The right operand's row is the output's column … -/
theorem right_row (j : S256x2048.Idx) (q : D.contr.Idx) : (D.rhsIdx j q 0).val = (j 1).val := by
  unfold DotDims.rhsIdx
  rw [dif_neg (show ¬(0 : Fin S2048x2048.rank) ∈ D.rhsBatch by decide), dif_pos (show (0 : Fin S2048x2048.rank) ∈ D.rhsNonContracting by decide)]
  rfl
/-- … and its column the contracted feature too. -/
theorem right_col (j : S256x2048.Idx) (q : D.contr.Idx) : (D.rhsIdx j q 1).val = (q ⟨0, by decide⟩).val :=
  D.rhsIdx_val_of_single rfl j q

/-- The product into a zero accumulator, read at row `r` and column `o`: the sum over the features of the left
    operand at `(r, k)` times the right operand at `(o, k)`. -/
theorem product_apply (a : FVec Ideal S256x2048 .bf16) (b : FVec Ideal S2048x2048 .bf16) (r : Fin 256) (o : Fin 2048) :
    matmul D none a b (constant S256x2048 .f32 0x00000000#32) (ix2 r o) = ∑ k : Fin 2048, a (ix2 r k) * b (ix2 o k) := by
  simp only [matmul]
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx (ix2 r o) ((contrEquiv1 D 2048 rfl rfl).symm k) = ix2 r k := funext fun a => Fin.ext (by
    match a with
    | ⟨0, _⟩ => exact left_row _ _
    | ⟨1, _⟩ => exact (left_col _ _).trans hk)
  have er : D.rhsIdx (ix2 r o) ((contrEquiv1 D 2048 rfl rfl).symm k) = ix2 o k := funext fun a => Fin.ext (by
    match a with
    | ⟨0, _⟩ => exact right_row _ _
    | ⟨1, _⟩ => exact (right_col _ _).trans hk)
  rw [el, er]

/-- The weights as the body prepares them are their signs, element by element. -/
theorem signs_eq (w : FVec Ideal S2048x2048 .f32) :
    select (cmpf .ogt (absf w) (broadcast S2048x2048 (Scalar.ofBits .f32 0x00000000#32)))
        (select (cmpf .olt w (constant S2048x2048 .f32 0x00000000#32)) (constant S2048x2048 .f32 0xBF800000#32)
          (constant S2048x2048 .f32 0x3F800000#32)) w
      = fun i => Ideal.sign (w i) :=
  funext fun i => Ideal.jnp_sign_eq_sign_f32 (w i)

/-- THE STORED BLOCK at row `r`, column `o`: the loaded activation block's row `r` against the signs of row `o` of the
    loaded weights. -/
theorem payload_apply (x : FVec Ideal S256x2048 .f32) (w : FVec Ideal S2048x2048 .f32) (r : Fin 256) (o : Fin 2048) :
    k0_pay1 (F := Ideal) x w (ix2 r o) = ∑ k : Fin 2048, x (ix2 r k) * Ideal.sign (w (ix2 o k)) := by
  have h : k0_pay1 (F := Ideal) x w
      = matmul D none (truncf .bf16 x bitsLt_bf16_f32)
          (truncf .bf16 (fun i => Ideal.sign (w i) : FVec Ideal S2048x2048 .f32) bitsLt_bf16_f32)
          (constant S256x2048 .f32 0x00000000#32) := by
    unfold k0_pay1
    show matmul D none (truncf .bf16 x bitsLt_bf16_f32)
        (truncf .bf16 (select (cmpf .ogt (absf w) (broadcast S2048x2048 (Scalar.ofBits .f32 0x00000000#32)))
          (select (cmpf .olt w (constant S2048x2048 .f32 0x00000000#32)) (constant S2048x2048 .f32 0xBF800000#32)
            (constant S2048x2048 .f32 0x3F800000#32)) w) bitsLt_bf16_f32)
        (constant S256x2048 .f32 0x00000000#32) = _
    rw [signs_eq]
  rw [h]
  exact product_apply (truncf .bf16 x bitsLt_bf16_f32)
    (truncf .bf16 (fun i => Ideal.sign (w i) : FVec Ideal S2048x2048 .f32) bitsLt_bf16_f32) r o

end Cert.KernelIdeal.BlockValue

end
-- ==== Proof.WholeArray.lean ====
/-
  From blocks to the whole result array.

  The grid has 128 points. Point `t` is handed rows `256 t … 256 t + 255` of the activations, the whole weight array,
  and writes back rows `256 t … 256 t + 255` of the result, all 2048 columns. Entry `(r, o)` of what it writes is row
  `r` of its activation block against the signs of row `o` of the weights, which is entry `(256 t + r, o)` of the
  signed product of the whole arrays. The 128 row bands tile the 32768 rows (row `i` lies in band `i / 256`), so
  after the run the result array is the signed product everywhere.
-/
import proofs.«119476_j12549894438939_1_alg».proof.Proof.Gen.KernelIdeal.Value
import proofs.«119476_j12549894438939_1_alg».proof.Proof.BlockProduct
import proofs.«119476_j12549894438939_1_alg».proof.Proof.SignedMatmul
import Idealize.ShloMosaic.Lib.Pipeline.Value

noncomputable section

open scoped BigOperators

namespace Cert.KernelIdeal.ArrayValue

open Cert.KernelIdeal Cert.KernelIdeal.Gen
open Idealize.ShloMosaic Idealize.ShloMosaic.TcCoe Idealize.SL.Sem Idealize.ShloMosaic.ValueIdx Cert.SignedMatmul
open Idealize.ShloMosaic.Pipeline (Dat)

variable (m : (ℓ : Loc nD τ sig) → Buf (Elt Ideal) ℓ) (ρ : Dev nD → PrngReg)

/-- The body's accesses all start at the corner of their buffer. -/
theorem corner : (![0, 0] : Fin 2 → Nat) = fun _ => 0 := funext fun a => by fin_cases a <;> rfl

/-- Where each window's block sits at point `t`: the activations and the result in row band `t`, the weights always
    whole (decided over the 128 points). -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a stored block is one entry of the signed product, as soon as the block's activation row is the
    array's row (`hx`) and the block's weight row the array's (`hw`). -/
theorem entry_eq (x0 : Vec Ideal S256x2048 .f32) (x1 : Vec Ideal S2048x2048 .f32)
    (X : FVec Ideal Acts .f32) (W : FVec Ideal Wts .f32) (r : Fin 256) (o : Fin 2048) (i : Acts.Idx)
    (hx : ∀ k : Fin 2048, x0 (ix2 r k) = X (ix2 (i 0) k))
    (hw : ∀ k : Fin 2048, x1 (ix2 o k) = W (ix2 (i 1) k)) :
    k0_pay1 (F := Ideal) x0 x1 (ix2 r o) = signedProduct X W i := by
  rw [BlockValue.payload_apply]
  show _ = ∑ k : Fin 2048, X (ix2 (i 0) k) * Ideal.sign (W (ix2 (i 1) k))
  exact Finset.sum_congr rfl fun k _ => by rw [hx k, hw k]

/-- WHAT POINT `t` WRITES BACK is band `t` of the signed product of the arrays as the region finds them. -/
theorem flushed_eq (c : Dev nD) (t : Fin cfg0.N) :
    (dats m 0 c).flushed 2 t
      = ((cfg0.win 2).blk t).view.read (Elt Ideal) (signedProduct (V m c main_arg0) (V m c main_arg1)) := by
  rw [Value.flushed2]
  unfold out0_2
  rw [View.canon_unit_zero corner]
  simp only [View.ld_unit_zero (S := S256x2048) corner, View.ld_unit_zero (S := S2048x2048) corner]
  obtain ⟨e0, e1, e2, e3, e4, e5⟩ := block_positions t
  refine funext fun (j : S256x2048.Idx) => ?_
  obtain ⟨r, o, rfl⟩ : ∃ (r : Fin 256) (o : Fin 2048), j = ix2 r o := ⟨j 0, j 1, eq_ix2 j⟩
  show k0_pay1 (F := Ideal) (iblk m c 0 t) (iblk m c 1 t) (ix2 r o)
      = signedProduct (V m c main_arg0) (V m c main_arg1) (((cfg0.win 2).blk t).view.emb (ix2 r o))
  refine entry_eq (iblk m c 0 t) (iblk m c 1 t) (V m c main_arg0) (V m c main_arg1) r o
    (((cfg0.win 2).blk t).view.emb (ix2 r o)) ?_ ?_
  · intro k
    show V m c main_arg0 (((cfg0.win 0).blk t).view.emb (ix2 r k))
        = V m c main_arg0 (ix2 ((((cfg0.win 2).blk t).view.emb (ix2 r o)) 0) k)
    refine congrArg _ (funext fun a => Fin.ext ?_)
    match a with
    | ⟨0, _⟩ => show win0_0.index t (0 : Fin 2) * 256 + 1 * r.val = win0_2.index t (0 : Fin 2) * 256 + 1 * r.val; omega
    | ⟨1, _⟩ => show win0_0.index t (1 : Fin 2) * 2048 + 1 * k.val = k.val; omega
  · intro k
    show V m c main_arg1 (((cfg0.win 1).blk t).view.emb (ix2 o k))
        = V m c main_arg1 (ix2 ((((cfg0.win 2).blk t).view.emb (ix2 r o)) 1) k)
    refine congrArg _ (funext fun a => Fin.ext ?_)
    match a with
    | ⟨0, _⟩ => show win0_1.index t (0 : Fin 2) * 2048 + 1 * o.val = win0_2.index t (1 : Fin 2) * 2048 + 1 * o.val; omega
    | ⟨1, _⟩ => show win0_1.index t (1 : Fin 2) * 2048 + 1 * k.val = k.val; omega

/-- An index of the result array is in point `t`'s block iff each coordinate is in the block's range on its axis. -/
theorem mem_block (t : Fin cfg0.N) (i : S32768x2048.Idx) :
    i ∈ ((cfg0.win 2).blk t).view.set ↔ ∀ a : Fin 2, win0_2.index t a * S256x2048.size a ≤ (i a).val
      ∧ (i a).val < win0_2.index t a * S256x2048.size a + S256x2048.size a := by
  show i ∈ ((View.whole main_v0).slice (win0_2.rect t)).set ↔ _
  rw [View.set_slice_whole, Rect.mem_set_unit]
  exact Iff.rfl

/-- Every index of the result array lies in some point's block: row `i` is in band `i / 256`. -/
theorem covered (i : S32768x2048.Idx) :
    ∃ t : Fin cfg0.N, (cfg0.win 2).flush t = true ∧ i ∈ ((cfg0.win 2).blk t).view.set := by
  have hi0 : (i 0).val < 32768 := (i 0).isLt
  have hi1 : (i 1).val < 2048 := (i 1).isLt
  have hN : grid0.N = 128 := N_0
  let t : Fin cfg0.N := ⟨(i 0).val / 256, by show (i 0).val / 256 < grid0.N; omega⟩
  obtain ⟨e0, e1, e2, e3, e4, e5⟩ := block_positions t
  have ht : t.val = (i 0).val / 256 := rfl
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2048 ≤ (i 1).val ∧ (i 1).val < win0_2.index t (1 : Fin 2) * 2048 + 2048; omega

/-- THE RESULT ARRAY after the run is the signed product of the two argument arrays as launched. -/
theorem final (c : Dev nD) :
    (dats m 0 c).arrAt 2 cfg0.N
      = signedProduct (m ((c : Thread nD τ).loc main_arg0)) (m ((c : Thread nD τ).loc main_arg1)) :=
  (dats m 0 c).arrAt_eq_of_cover 2 (signedProduct (V m c main_arg0) (V m c main_arg1))
    (fun t _ => flushed_eq m c t) covered

/-- The kernel's run, read: the result array at the signed product of the arguments, the arguments unchanged. -/
theorem run : θ_run defs (onTc (τ := τ) (main (F := Ideal))) ⟨m, fun _ => 0, ρ⟩ fun r => ∀ c : Dev nD,
      r.2.mem ((c : Thread nD τ).loc main_v0)
        = signedProduct (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.lean ====
/-
  A binarized linear layer: every weight is replaced by its sign and the activations are multiplied by the result,

      out (t, o) = ∑ k, x (t, k) · sign (w (o, k)),     x : 32768 × 2048,  w : 2048 × 2048.

  The kernel walks the 32768 activation rows in 128 bands of 256; at each band it loads the band and the whole weight
  array, takes the signs of the weights, and multiplies with the feature axis of both operands contracted into a
  zero accumulator (Proof/BlockProduct.lean: one stored entry is one such sum). The bands tile the rows, so the result
  array after the run is the formula above at every index (Proof/WholeArray.lean). The reference takes the signs of
  the whole weight array and contracts the same two axes in one step, which read at an index is the same sum
  (Proof/ReferenceValue.lean). Both sides apply the sign to the same weights and sum the same 2048 products, so they
  agree on all extended reals: no law that needs finiteness is used, and the precondition is never opened.

  The kernel as compiled computes the sign from the weight's sign bit; its idealization reads that as a comparison
  with zero. That one rewrite is the only entry of the idealization's ledger.
-/
import proofs.«119476_j12549894438939_1_alg».proof.Defs
import proofs.«119476_j12549894438939_1_alg».proof.Proof.Gen.Kernel
import proofs.«119476_j12549894438939_1_alg».proof.Proof.Gen.Kernel.Skeleton
import proofs.«119476_j12549894438939_1_alg».proof.Proof.Gen.Kernel.Launch
import proofs.«119476_j12549894438939_1_alg».proof.Proof.Gen.Kernel.Points
import proofs.«119476_j12549894438939_1_alg».proof.Proof.Gen.Kernel.Frame
import proofs.«119476_j12549894438939_1_alg».proof.Proof.Gen.KernelIdeal
import proofs.«119476_j12549894438939_1_alg».proof.Proof.Gen.KernelIdeal.Skeleton
import proofs.«119476_j12549894438939_1_alg».proof.Proof.Gen.KernelIdeal.Launch
import proofs.«119476_j12549894438939_1_alg».proof.Proof.Gen.KernelIdeal.Points
import proofs.«119476_j12549894438939_1_alg».proof.Proof.Gen.KernelIdeal.Frame
import proofs.«119476_j12549894438939_1_alg».proof.Proof.Gen.ReferenceIdeal
import proofs.«119476_j12549894438939_1_alg».proof.Proof.Gen.Pre_finite_inputs
import proofs.«119476_j12549894438939_1_alg».proof.Proof.Gen.KernelIdeal.Value
import proofs.«119476_j12549894438939_1_alg».proof.Proof.Gen.ReferenceIdeal.Run
import proofs.«119476_j12549894438939_1_alg».proof.Proof.Gen.ReferenceIdeal.Read
import proofs.«119476_j12549894438939_1_alg».proof.Proof.ReferenceValue
import proofs.«119476_j12549894438939_1_alg».proof.Proof.WholeArray
import Idealize.ShloMosaic.Adequacy
import Idealize.ShloMosaic.Init

noncomputable section

namespace Cert.Proof

open Idealize.ShloMosaic Idealize.ShloMosaic.TcCoe Idealize.SL.Sem

/-- The kernel as compiled terminates without a fault and leaves its two arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's run ends with its arguments unchanged: its value run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ledger's one entry: one with the weight's sign bit, read over the exact values, is `-1` below zero and `1`
    elsewhere, at the weights' shape and format. -/
theorem preserves : Cert.preserves_Kernel_KernelIdeal :=
  IdealRules.sign_bit.statement Cert.KernelIdeal.S2048x2048 .f32

/-- From arguments that agree, the kernel's result array and the reference's both end at the signed product of the
    activations and the weights. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.reference_eq _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
